-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S4000000x4x4 : Shape := ⟨3, ![4000000, 4, 4]⟩
abbrev S200000x4 : Shape := ⟨2, ![200000, 4]⟩
abbrev S200000x4x4 : Shape := ⟨3, ![200000, 4, 4]⟩
abbrev S200000x1 : Shape := ⟨2, ![200000, 1]⟩
abbrev S200000 : Shape := ⟨1, ![200000]⟩
abbrev S4x4 : Shape := ⟨2, ![4, 4]⟩
abbrev S200000x4x1 : Shape := ⟨3, ![200000, 4, 1]⟩
abbrev S1x4x4 : Shape := ⟨3, ![1, 4, 4]⟩

abbrev nBuf : Space → Nat
  | .hbm => 2
  | .vmem => 4
  | .smem => 0
  | _ => 0

abbrev bufTy : (tb : Table) → Fin (tcTables nBuf tb) → BufTy
  | .hbm, ⟨0, _⟩ => ⟨S4000000x4, .f32⟩
  | .hbm, ⟨1, _⟩ => ⟨S4000000x4x4, .f32⟩
  | .local _ .vmem, ⟨0, _⟩ => ⟨S200000x4, .f32⟩
  | .local _ .vmem, ⟨1, _⟩ => ⟨S200000x4, .f32⟩
  | .local _ .vmem, ⟨2, _⟩ => ⟨S200000x4x4, .f32⟩
  | .local _ .vmem, ⟨3, _⟩ => ⟨S200000x4x4, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200000x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S200000x4_S200000x4_0_0 : ∀ a, (![0, 0] : Fin 2 → Nat) a + S200000x4.size a ≤ S200000x4.size a
  h_S200000x4 : 0 < S200000x4.numel
  slices_S200000x4_o0_1_S200000x1 : S200000x4.Slices ![0, 1] S200000x1
  shapeCasts_S200000x1_S200000 : S200000x1.ShapeCasts S200000
  slices_S200000x4_o0_2_S200000x1 : S200000x4.Slices ![0, 2] S200000x1
  shapeCasts_S200000_S200000x1 : S200000.ShapeCasts S200000x1
  concatenates_S200000x1_S200000x1_S200000x1_S200000x1_S200000x4_d1 : Shape.Concatenates [S200000x1, S200000x1, S200000x1, S200000x1] S200000x4 1
  iota_S4x4_d0_w32 : S4x4.Iotas .tc 32 [0]
  iota_S4x4_d1_w32 : S4x4.Iotas .tc 32 [1]
  shapeCasts_S200000x4_S200000x4x1 : S200000x4.ShapeCasts S200000x4x1
  shapeCasts_S4x4_S1x4x4 : S4x4.ShapeCasts S1x4x4
  broadcasts_S200000x4x1_S200000x4x4 : S200000x4x1.Broadcasts S200000x4x4
  broadcasts_S1x4x4_S200000x4x4 : S1x4x4.Broadcasts S200000x4x4
  inb_S200000x4x4_S200000x4x4_0_0_0 : ∀ a, (![0, 0, 0] : Fin 3 → Nat) a + S200000x4x4.size a ≤ S200000x4x4.size a
  h_S200000x4x4 : 0 < S200000x4x4.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200000x4.size a ≤ S4000000x4.size a
  hwx0_0 : ∀ i : grid0.Coords, EltTy.bits .f32 = 32 ∨ (Rect.block (s := S4000000x4) S200000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200000x4x4.size a ≤ S4000000x4x4.size a
  hwx0_1 : ∀ i : grid0.Coords, EltTy.bits .f32 = 32 ∨ (Rect.block (s := S4000000x4x4) S200000x4x4.size (cc0_transform_1 i) (hinb0_1 i)).WholeWords (EltTy.packing .f32)

variable [Facts₀]

abbrev win0_0 : Pipeline.Window sig grid0 :=
  Pipeline.Window.ofSpec (Memref.whole main_arg0) S200000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200000x4x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x1 : Shape := ⟨2, ![4000000, 1]⟩
abbrev S4000000 : Shape := ⟨1, ![4000000]⟩
abbrev S_ : Shape := ⟨0, ![]⟩
abbrev S4x4 : Shape := ⟨2, ![4, 4]⟩
abbrev S4000000x4x1 : Shape := ⟨3, ![4000000, 4, 1]⟩
abbrev S1x4x4 : Shape := ⟨3, ![1, 4, 4]⟩
abbrev S4000000x4x4 : Shape := ⟨3, ![4000000, 4, 4]⟩

abbrev nBuf : Space → Nat
  | .hbm => 37
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S_, .f32⟩
  | .hbm, ⟨6, _⟩ => ⟨S4000000, .f32⟩
  | .hbm, ⟨7, _⟩ => ⟨S4000000, .f32⟩
  | .hbm, ⟨8, _⟩ => ⟨S_, .f32⟩
  | .hbm, ⟨9, _⟩ => ⟨S4000000, .f32⟩
  | .hbm, ⟨10, _⟩ => ⟨S4000000, .f32⟩
  | .hbm, ⟨11, _⟩ => ⟨S4000000, .f32⟩
  | .hbm, ⟨12, _⟩ => ⟨S_, .f32⟩
  | .hbm, ⟨13, _⟩ => ⟨S4000000, .f32⟩
  | .hbm, ⟨14, _⟩ => ⟨S4000000, .f32⟩
  | .hbm, ⟨15, _⟩ => ⟨S4000000, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S4000000x1, .f32⟩
  | .hbm, ⟨21, _⟩ => ⟨S4000000x1, .f32⟩
  | .hbm, ⟨22, _⟩ => ⟨S4000000x1, .f32⟩
  | .hbm, ⟨23, _⟩ => ⟨S4000000x1, .f32⟩
  | .hbm, ⟨24, _⟩ => ⟨S4000000x4, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4000000x4x1, .f32⟩
  | .hbm, ⟨33, _⟩ => ⟨S1x4x4, .f32⟩
  | .hbm, ⟨34, _⟩ => ⟨S4000000x4x4, .f32⟩
  | .hbm, ⟨35, _⟩ => ⟨S4000000x4x4, .f32⟩
  | .hbm, ⟨36, _⟩ => ⟨S4000000x4x4, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]

class Facts₀ : Prop where
  slices_S4000000x4_S4000000x1_0_1 : S4000000x4.Slices ![0, 1] S4000000x1
  shapeCasts_S4000000x1_S4000000 : S4000000x1.ShapeCasts S4000000
  slices_S4000000x4_S4000000x1_0_2 : S4000000x4.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x4_d1 : Shape.Concatenates [S4000000x1, S4000000x1, S4000000x1, S4000000x1] S4000000x4 1
  bcast_S_S4x4 : S_.BroadcastsInDim S4x4 (![] : Fin 0 → Fin S4x4.rank)
  bcast_S4000000x4_S4000000x4x1_0_1 : S4000000x4.BroadcastsInDim S4000000x4x1 (![0, 1] : Fin 2 → Fin S4000000x4x1.rank)
  bcast_S4x4_S1x4x4_1_2 : S4x4.BroadcastsInDim S1x4x4 (![1, 2] : Fin 2 → Fin S1x4x4.rank)
  bcast_S4000000x4x1_S4000000x4x4_0_1_2 : S4000000x4x1.BroadcastsInDim S4000000x4x4 (![0, 1, 2] : Fin 3 → Fin S4000000x4x4.rank)
  bcast_S1x4x4_S4000000x4x4_0_1_2 : S1x4x4.BroadcastsInDim S4000000x4x4 (![0, 1, 2] : Fin 3 → Fin S4000000x4x4.rank)

variable [Facts₀]

class Facts : Prop extends Facts₀ where

variable [Facts]
-- ==== Proof.Spec.lean ====
/-
  The Schwarzschild metric of a batch of events, as ONE function of the coordinate array.

  An event is a row (t, r, θ, φ) of the argument. With the lapse f = 1 − 2/r (Schwarzschild radius 2) the metric is
  diagonal, diag(−f, 1/f, r², r²·sin²θ), and the result holds, for event n, the 4×4 matrix whose (a, b) entry is the a-th
  diagonal component times the (a, b) entry of the identity matrix. Everything is read on the extended reals: the
  quotient is the ideal instance's division and the sine its sine, so no entry is excepted (r = 0, r = 2 and the
  infinities included) — both programs apply the same operations in the same order, and the statement below is that
  order. The constants 1 and 2 in the lapse are kept as the binary words both programs spell; only the identity
  matrix's entries are evaluated, because one program selects between the words 1.0 and 0.0 and the other converts a
  comparison's bit.
-/
import Idealize.ShloMosaic.PureOps.Ideal
import Idealize.ShloMosaic.PureOps.Ideal.Laws
import Idealize.ShloMosaic.Lib.ValueIdx

noncomputable section

namespace Cert.Metric

open Idealize.ShloMosaic Idealize.ShloMosaic.ValueIdx

/-- The lapse f = 1 − 2/r at radius r. -/
def lapse (r : EReal) : EReal :=
  Ideal.ofBits .f32 0x3F800000#32 - Ideal.div (Ideal.ofBits .f32 0x40000000#32) r

/-- The metric's diagonal at radius r and polar angle θ: g_tt = −f, g_rr = 1/f, g_θθ = r², g_φφ = r²·sin²θ. -/
def diag (r θ : EReal) (a : Fin 4) : EReal :=
  match a with
  | ⟨0, _⟩ => -(lapse r)
  | ⟨1, _⟩ => Ideal.div (Ideal.ofBits .f32 0x3F800000#32) (lapse r)
  | ⟨2, _⟩ => r * r
  | ⟨3, _⟩ => (r * r) * (Ideal.sin θ * Ideal.sin θ)

/-- The identity matrix's entries. -/
def eye (a b : Fin 4) : EReal := if a = b then 1 else 0

/-- Entry (a, b) of event n's metric: the radius is column 1 of the event's row and the polar angle column 2. -/
def entry {N : Nat} (x : (⟨2, ![N, 4]⟩ : Shape).Idx → EReal) (n : Fin N) (a b : Fin 4) : EReal :=
  diag (x (ix2 n (1 : Fin 4))) (x (ix2 n (2 : Fin 4))) a * eye a b

/-- The whole result: every event's metric. -/
def G (x : (⟨2, ![4000000, 4]⟩ : Shape).Idx → EReal) : (⟨3, ![4000000, 4, 4]⟩ : Shape).Idx → EReal :=
  fun i => entry x (i 0) (i 1) (i 2)

theorem G_ix3 (x : (⟨2, ![4000000, 4]⟩ : Shape).Idx → EReal) (n : Fin 4000000) (a b : Fin 4) :
    G x (ix3 n a b) = entry x n a b := rfl

/-! ## The identity matrix, spelt two ways -/

/-- The word 1.0 denotes 1. -/
theorem ofBits_one : Ideal.ofBits .f32 0x3F800000#32 = 1 := by
  simp [Ideal.ofBits, Ideal.ieee, -EReal.coe_mul]; norm_num

/-- Two coordinates below 4, as 32-bit words, are equal words exactly when they are equal. -/
theorem cmp_word (a b : Fin 4) :
    IntOp.cmpi .eq (BitVec.ofNat 32 a.val) (BitVec.ofNat 32 b.val) = BitVec.ofBool (decide (a = b)) := by
  revert a b; decide

/-- Adding the zero word to a coordinate changes nothing. -/
theorem add_zero_word (a : Fin 4) : IntOp.addi (BitVec.ofNat 32 a.val) 0#32 = BitVec.ofNat 32 a.val := by
  revert a; decide

/-- A select between the words 1.0 and 0.0 on "row = column" is the identity matrix's entry. -/
theorem eye_select (a b : Fin 4) :
    Scalar.select (IntOp.cmpi .eq (BitVec.ofNat 32 a.val) (BitVec.ofNat 32 b.val))
      (Ideal.ofBits .f32 0x3F800000#32) (Ideal.ofBits .f32 0x00000000#32) = eye a b := by
  rw [cmp_word]; unfold eye
  by_cases h : a = b
  · rw [if_pos h, decide_eq_true h]; exact (select_one _ _).trans ofBits_one
  · rw [if_neg h, decide_eq_false h]; exact (select_zero _ _).trans Ideal.ofBits_zero_f32

/-- The bit of "row + 0 = column" converted to a float is the identity matrix's entry. -/
theorem eye_convert (a b : Fin 4) :
    (((IntOp.cmpi .eq (IntOp.addi (BitVec.ofNat 32 a.val) 0#32) (BitVec.ofNat 32 b.val)).toNat : ℝ) : EReal) = eye a b := by
  rw [add_zero_word, cmp_word]; unfold eye
  by_cases h : a = b
  · rw [if_pos h, decide_eq_true h]; simp
  · rw [if_neg h, decide_eq_false h]; simp

end Cert.Metric

end
-- ==== Proof.LibConcatColumns.lean ====
/-
  Four columns stacked side by side, read at an index.

  A concatenation along axis 1 of four [n, 1] columns is the [n, 4] array whose entry (p, a) is column a's entry in
  row p. General in the number of rows n and in the element type.
-/
import Idealize.ShloMosaic.Lib.Pipeline.Value
import Idealize.ShloMosaic.Lib.ValueIdx

noncomputable section

namespace Cert.ConcatColumns

open Idealize.ShloMosaic Idealize.ShloMosaic.ValueIdx

variable {α : Type}

/-- Entry (p, a) of four [n, 1] columns joined along axis 1 is column a at row p. -/
theorem concat4_apply {n : Nat} (f : Fin 4 → ((⟨2, ![n, 1]⟩ : Shape).Idx → α))
    (h : Shape.Concatenates
      (([⟨⟨2, ![n, 1]⟩, f 0⟩, ⟨⟨2, ![n, 1]⟩, f 1⟩, ⟨⟨2, ![n, 1]⟩, f 2⟩, ⟨⟨2, ![n, 1]⟩, f 3⟩] :
        List ((s : Shape) × (s.Idx → α))).map (·.1)) (⟨2, ![n, 4]⟩ : Shape) 1)
    (p : Fin n) (a : Fin 4) :
    concatenate (⟨2, ![n, 4]⟩ : Shape) 1
      [⟨⟨2, ![n, 1]⟩, f 0⟩, ⟨⟨2, ![n, 1]⟩, f 1⟩, ⟨⟨2, ![n, 1]⟩, f 2⟩, ⟨⟨2, ![n, 1]⟩, f 3⟩] h (ix2 p a)
      = f a (ix2 p (0 : Fin 1)) := by
  have e : ([⟨⟨2, ![n, 1]⟩, f 0⟩, ⟨⟨2, ![n, 1]⟩, f 1⟩, ⟨⟨2, ![n, 1]⟩, f 2⟩, ⟨⟨2, ![n, 1]⟩, f 3⟩] :
      List ((s : Shape) × (s.Idx → α))) = List.ofFn fun k : Fin 4 => (⟨⟨2, ![n, 1]⟩, f k⟩ : (s : Shape) × (s.Idx → α)) := rfl
  revert h
  rw [e]
  intro h
  exact concatenate_ofFn_unit_apply (t := (⟨2, ![n, 4]⟩ : Shape)) (s₁ := (⟨2, ![n, 1]⟩ : Shape)) (1 : Fin 2) f h rfl rfl
    (ix2 p a) a rfl (ix2 p (0 : Fin 1))
    (fun b hb => match b, hb with
      | ⟨0, _⟩, _ => rfl
      | ⟨1, _⟩, hb => absurd rfl hb)

end Cert.ConcatColumns

end
-- ==== Proof.RefValue.lean ====
/-
  The reference computes the specification.

  The reference slices the radius (column 1) and the polar angle (column 2) out of the coordinate array, forms the
  four diagonal components as vectors over the events, stacks them as the columns of an [events, 4] array, and
  multiplies that array, broadcast along a new last axis, by the identity matrix broadcast over the events. Read at
  the index (n, a, b) this is component a of event n times the identity's (a, b) entry: the specification's entry.
  Each stage is read at an index by the generated lemmas; the stack of columns is read by the four-column lemma.
-/
import proofs.«158145_j6390911336868_1_alg».proof.Proof.Gen.ReferenceIdeal.Read
import proofs.«158145_j6390911336868_1_alg».proof.Proof.Spec
import proofs.«158145_j6390911336868_1_alg».proof.Proof.LibConcatColumns
import Idealize.ShloMosaic.Lib.ValueIdx

noncomputable section

namespace Cert.ReferenceIdeal.RefValue

open Cert.ReferenceIdeal Cert.ReferenceIdeal.Read Idealize.ShloMosaic Idealize.ShloMosaic.ValueIdx Cert.Metric

variable (x : S4000000x4.Idx → EReal)

/-- The radius vector at event n is column 1 of the event's row. -/
theorem radius_apply (n : Fin 4000000) : val_main_v1 (F := Ideal) x (ix1 n) = x (ix2 n (1 : Fin 4)) := by
  rw [val_main_v1_apply, val_main_v0_apply]
  refine congrArg x (funext fun a => Fin.ext ?_)
  match a with
  | ⟨0, _⟩ => show n.val / 1 = n.val; omega
  | ⟨1, _⟩ => rfl

/-- The polar-angle vector at event n is column 2 of the event's row. -/
theorem angle_apply (n : Fin 4000000) : val_main_v3 (F := Ideal) x (ix1 n) = x (ix2 n (2 : Fin 4)) := by
  rw [val_main_v3_apply, val_main_v2_apply]
  refine congrArg x (funext fun a => Fin.ext ?_)
  match a with
  | ⟨0, _⟩ => show n.val / 1 = n.val; omega
  | ⟨1, _⟩ => rfl

/-- The lapse vector at event n. -/
theorem lapse_apply (n : Fin 4000000) : val_main_v7 (F := Ideal) x (ix1 n) = lapse (x (ix2 n (1 : Fin 4))) := by
  rw [val_main_v7_apply, val_main_v6_apply, val_main_cst_0_apply, val_main_v5_apply, val_main_v4_apply,
    val_main_cst_apply, radius_apply]
  rfl

/-- A vector over the events laid as a column is read at (n, 0) where the vector is read at n. -/
theorem col_idx (n : Fin 4000000) : idx_main_v16 (ix2 n (0 : Fin 1)) = ix1 n :=
  funext fun a => match a with | ⟨0, _⟩ => rfl

/-- The four columns at row n are the four diagonal components of event n. -/
theorem column_apply (n : Fin 4000000) (a : Fin 4) :
    (![val_main_v16 (F := Ideal) x, val_main_v17 (F := Ideal) x, val_main_v18 (F := Ideal) x, val_main_v19 (F := Ideal) x] a)
      (ix2 n (0 : Fin 1)) = diag (x (ix2 n (1 : Fin 4))) (x (ix2 n (2 : Fin 4))) a := by
  match a with
  | ⟨0, _⟩ =>
    show val_main_v16 (F := Ideal) x (ix2 n (0 : Fin 1)) = _
    rw [val_main_v16_apply, col_idx, val_main_v8_apply, lapse_apply]; rfl
  | ⟨1, _⟩ =>
    show val_main_v17 (F := Ideal) x (ix2 n (0 : Fin 1)) = _
    rw [val_main_v17_apply, show idx_main_v17 (ix2 n (0 : Fin 1)) = ix1 n from col_idx n, val_main_v10_apply,
      val_main_v9_apply, val_main_cst_1_apply, lapse_apply]; rfl
  | ⟨2, _⟩ =>
    show val_main_v18 (F := Ideal) x (ix2 n (0 : Fin 1)) = _
    rw [val_main_v18_apply, show idx_main_v18 (ix2 n (0 : Fin 1)) = ix1 n from col_idx n, val_main_v11_apply,
      radius_apply]; rfl
  | ⟨3, _⟩ =>
    show val_main_v19 (F := Ideal) x (ix2 n (0 : Fin 1)) = _
    rw [val_main_v19_apply, show idx_main_v19 (ix2 n (0 : Fin 1)) = ix1 n from col_idx n, val_main_v15_apply,
      val_main_v12_apply, val_main_v14_apply, val_main_v13_apply, radius_apply, angle_apply]; rfl

/-- The stacked columns at (n, a): component a of event n. -/
theorem diag_apply (n : Fin 4000000) (a : Fin 4) :
    val_main_v20 (F := Ideal) x (ix2 n a) = diag (x (ix2 n (1 : Fin 4))) (x (ix2 n (2 : Fin 4))) a := by
  unfold val_main_v20
  exact (Cert.ConcatColumns.concat4_apply
    ![val_main_v16 (F := Ideal) x, val_main_v17 (F := Ideal) x, val_main_v18 (F := Ideal) x, val_main_v19 (F := Ideal) x]
    _ n a).trans (column_apply x n a)

/-- THE REFERENCE IS THE SPECIFICATION: its last stage, index by index, is every event's metric. -/
theorem ref_eq : val_main_v31 (F := Ideal) x = G x := by
  funext i
  obtain ⟨n, a, b, rfl⟩ : ∃ (n : Fin 4000000) (a b : Fin 4), i = ix3 n a b := ⟨i 0, i 1, i 2, eq_ix3 i⟩
  rw [G_ix3, val_main_v31_apply, val_main_v29_apply, val_main_v27_apply, val_main_v30_apply, val_main_v28_apply,
    val_main_v26_apply, val_main_v25_apply, val_main_v24_apply, val_main_v21_apply, val_main_v22_apply,
    val_main_v23_apply, val_main_c_apply]
  have e : idx_main_v27 (idx_main_v29 (ix3 n a b)) = ix2 n a :=
    funext fun d => match d with | ⟨0, _⟩ => rfl | ⟨1, _⟩ => rfl
  rw [e, diag_apply]
  exact congrArg (diag (x (ix2 n (1 : Fin 4))) (x (ix2 n (2 : Fin 4))) a * ·) (eye_convert a b)

end Cert.ReferenceIdeal.RefValue

end
-- ==== Proof.BlockValue.lean ====
/-
  What the kernel body stores, read at an index of the block.

  At one grid point the body holds a block of 200000 events. It cuts the radius (column 1) and the polar angle
  (column 2) out of the block as vectors, forms the four diagonal components as vectors over the block's events, casts
  each to a column, joins the four columns into a [200000, 4] array, and multiplies that array, broadcast along a new
  last axis, by the identity matrix broadcast over the events. The identity is a select between the words 1.0 and 0.0
  on "row = column". Read at the index (p, a, b) of the block the stored value is component a of the block's event p
  times the identity's (a, b) entry — the specification's entry, for the block as the array. The negation in the first
  component is written 0 − f, which is −f on every extended real.
-/
import proofs.«158145_j6390911336868_1_alg».proof.Proof.Gen.KernelIdeal.Skeleton
import proofs.«158145_j6390911336868_1_alg».proof.Proof.Spec
import proofs.«158145_j6390911336868_1_alg».proof.Proof.LibConcatColumns
import Idealize.ShloMosaic.Lib.Pipeline.Value
import Idealize.ShloMosaic.Lib.ValueIdx
import Idealize.ShloMosaic.Lib.ValueLayout

noncomputable section

namespace Cert.KernelIdeal.BlockValue

open Cert.KernelIdeal Cert.KernelIdeal.Gen Idealize.ShloMosaic Idealize.ShloMosaic.ValueIdx Cert.Metric

variable {α : Type}

/-! ## The layout operations of the body, each read at an index -/

/-- Column k of the block, cut out and cast to a vector, at event p. -/
theorem column_vec_apply (k : Nat) (hk : k < 4) (x0 : S200000x4.Idx → α) (hs : S200000x4.Slices ![0, k] S200000x1)
    (hc : S200000x1.ShapeCasts S200000) (p : Fin 200000) :
    shapeCast S200000 (extractStridedSlice S200000x1 ![0, k] x0 hs) hc (ix1 p) = x0 (ix2 p (⟨k, hk⟩ : Fin 4)) :=
  (shapeCast_apply _ hc (ix1 p) (ix2 p (0 : Fin 1)) (by
      rw [Shape.rowMajor_val_two, Shape.rowMajor_val_one]; show p.val * 1 + 0 = p.val; omega)).trans
    (extractStridedSlice_apply ![0, k] x0 hs (ix2 p (0 : Fin 1)) (ix2 p (⟨k, hk⟩ : Fin 4)) (fun a => match a with
      | ⟨0, _⟩ => by show p.val = 0 + p.val; omega
      | ⟨1, _⟩ => by show k = k + 0; omega))

/-- A vector over the block's events cast to a column, at (p, 0). -/
theorem vec_column_apply (v : S200000.Idx → α) (h : S200000.ShapeCasts S200000x1) (p : Fin 200000) :
    shapeCast S200000x1 v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- The [200000, 4] array given a unit last axis, at (p, a, 0). -/
theorem add_last_axis_apply (v : S200000x4.Idx → α) (h : S200000x4.ShapeCasts S200000x4x1) (p : Fin 200000) (a : Fin 4) :
    shapeCast S200000x4x1 v h (ix3 p a (0 : Fin 1)) = v (ix2 p a) :=
  shapeCast_apply v h (ix3 p a (0 : Fin 1)) (ix2 p a) (by
    rw [Shape.rowMajor_val_two, Shape.rowMajor_val_three]; show p.val * 4 + a.val = (p.val * 4 + a.val) * 1 + 0; omega)

/-- That array broadcast along its unit last axis, at (p, a, b). -/
theorem bcast_last_apply (v : S200000x4x1.Idx → α) (h : S200000x4x1.Broadcasts S200000x4x4) (p : Fin 200000) (a b : Fin 4) :
    broadcastTo S200000x4x4 v h (ix3 p a b) = v (ix3 p a (0 : Fin 1)) :=
  broadcastTo_apply v h (ix3 p a b) (ix3 p a (0 : Fin 1)) (fun d => match d with
    | ⟨0, _⟩ => by show p.val = if (200000 : Nat) = 1 then 0 else p.val; rw [if_neg (by decide)]
    | ⟨1, _⟩ => by show a.val = if (4 : Nat) = 1 then 0 else a.val; rw [if_neg (by decide)]
    | ⟨2, _⟩ => by show 0 = if (1 : Nat) = 1 then 0 else b.val; rw [if_pos rfl])

/-- A [1, 4, 4] array broadcast over the block's events, at (p, a, b). -/
theorem bcast_events_apply (v : S1x4x4.Idx → α) (h : S1x4x4.Broadcasts S200000x4x4) (p : Fin 200000) (a b : Fin 4) :
    broadcastTo S200000x4x4 v h (ix3 p a b) = v (ix3 (0 : Fin 1) a b) :=
  broadcastTo_apply v h (ix3 p a b) (ix3 (0 : Fin 1) a b) (fun d => match d with
    | ⟨0, _⟩ => by show 0 = if (1 : Nat) = 1 then 0 else p.val; rw [if_pos rfl]
    | ⟨1, _⟩ => by show a.val = if (4 : Nat) = 1 then 0 else a.val; rw [if_neg (by decide)]
    | ⟨2, _⟩ => by show b.val = if (4 : Nat) = 1 then 0 else b.val; rw [if_neg (by decide)])

/-- Four vectors over the block's events, each cast to a column and the columns joined, at (p, a): vector a at p. -/
theorem stack_apply (c0 c1 c2 c3 : S200000.Idx → α) (hc : S200000.ShapeCasts S200000x1)
    (h : Shape.Concatenates [S200000x1, S200000x1, S200000x1, S200000x1] S200000x4 1) (p : Fin 200000) (a : Fin 4) :
    concatenate S200000x4 1 [⟨S200000x1, shapeCast S200000x1 c0 hc⟩, ⟨S200000x1, shapeCast S200000x1 c1 hc⟩,
      ⟨S200000x1, shapeCast S200000x1 c2 hc⟩, ⟨S200000x1, shapeCast S200000x1 c3 hc⟩] h (ix2 p a)
      = (![c0, c1, c2, c3] a) (ix1 p) :=
  (Cert.ConcatColumns.concat4_apply
    ![shapeCast S200000x1 c0 hc, shapeCast S200000x1 c1 hc, shapeCast S200000x1 c2 hc, shapeCast S200000x1 c3 hc] h p a).trans
    (match a with
      | ⟨0, _⟩ => vec_column_apply c0 hc p
      | ⟨1, _⟩ => vec_column_apply c1 hc p
      | ⟨2, _⟩ => vec_column_apply c2 hc p
      | ⟨3, _⟩ => vec_column_apply c3 hc p)

/-! ## The body's value -/

/-- The body negates the lapse as 0 − f: on every extended real that is −f. -/
theorem zero_sub_lapse (r : EReal) : Ideal.ofBits .f32 0x00000000#32 - lapse r = -(lapse r) := by
  rw [Ideal.ofBits_zero_f32, zero_sub]

/-- THE BLOCK'S VALUE: what the body stores, at (p, a, b), is entry (a, b) of the metric of the block's event p. -/
theorem pay_apply (x0 : Vec Ideal S200000x4 .f32) (p : Fin 200000) (a b : Fin 4) :
    k0_pay1 (F := Ideal) x0 (ix3 p a b) = entry (N := 200000) x0 p a b := by
  unfold k0_pay1
  dsimp only
  refine (mulf_apply _ _ _).trans ?_
  unfold entry
  refine congrArg₂ (· * ·) ?_ ?_
  · -- component a of the block's event p: through the broadcast, the added axis and the joined columns to vector a at p
    refine (bcast_last_apply _ _ p a b).trans ((add_last_axis_apply _ _ p a).trans ((stack_apply _ _ _ _ _ _ p a).trans ?_))
    have hr : shapeCast S200000 (extractStridedSlice S200000x1 ![0, 1] x0 slices_S200000x4_o0_1_S200000x1)
        shapeCasts_S200000x1_S200000 (ix1 p) = x0 (ix2 p (1 : Fin 4)) :=
      column_vec_apply 1 (by decide) x0 slices_S200000x4_o0_1_S200000x1 shapeCasts_S200000x1_S200000 p
    have hθ : shapeCast S200000 (extractStridedSlice S200000x1 ![0, 2] x0 slices_S200000x4_o0_2_S200000x1)
        shapeCasts_S200000x1_S200000 (ix1 p) = x0 (ix2 p (2 : Fin 4)) :=
      column_vec_apply 2 (by decide) x0 slices_S200000x4_o0_2_S200000x1 shapeCasts_S200000x1_S200000 p
    rw [← hr, ← hθ]
    match a with
    | ⟨0, _⟩ => exact zero_sub_lapse _
    | ⟨1, _⟩ => rfl
    | ⟨2, _⟩ => rfl
    | ⟨3, _⟩ => rfl
  · -- the identity's entry: through the broadcast over the events and the added leading axis to the select at (a, b)
    refine (bcast_events_apply _ _ p a b).trans ((shapeCast_ab_1ab_apply _ _ (0 : Fin 1) a b).trans ?_)
    show Scalar.select (IntOp.cmpi .eq (iota .tc S4x4 32 [0] iota_S4x4_d0_w32 (ix2 a b)) (iota .tc S4x4 32 [1] iota_S4x4_d1_w32 (ix2 a b)))
      (Ideal.ofBits .f32 0x3F800000#32) (Ideal.ofBits .f32 0x00000000#32) = eye a b
    rw [iota_single_apply, iota_single_apply]
    exact eye_select a b

end Cert.KernelIdeal.BlockValue

end
-- ==== Proof.ArrayValue.lean ====
/-
  From the blocks to the array: after the run the result array holds every event's metric.

  The grid has twenty points; point t stages rows 200000·t … 200000·t + 199999 of the coordinate array and writes back
  the same rows of the result (all of columns and of both matrix axes). What the body stores at a point is the metric
  of the staged block's events, and event p of block t is event 200000·t + p of the argument, so what point t writes
  back is block t of the one whole-array function G. Every row lies in the block of the point "row / 200000", so the
  twenty blocks cover the result array, which therefore ends holding G of the argument.
-/
import proofs.«158145_j6390911336868_1_alg».proof.Proof.Gen.KernelIdeal.Value
import proofs.«158145_j6390911336868_1_alg».proof.Proof.BlockValue
import proofs.«158145_j6390911336868_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe
open Idealize.SL.Sem Idealize.ShloMosaic.ValueIdx Cert.Metric
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The two index maps over the grid: at point t both windows are at block t of the rows and block 0 of every other
    axis. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- ONE ENTRY OF ONE BLOCK: if the block x0 is rows 200000·T … of the array x, then what the body stores at the
    block's index j is G of x at the array index i with the same matrix coordinates and row 200000·T + (j's row). -/
theorem block_entry (x : S4000000x4.Idx → EReal) (x0 : Vec Ideal S200000x4 .f32) (T : Nat)
    (hx : ∀ (p : Fin 200000) (k : Fin 4) (q : S4000000x4.Idx), (q 0).val = T * 200000 + p.val → (q 1).val = k.val →
      x0 (ix2 p k) = x q)
    (j : S200000x4x4.Idx) (i : S4000000x4x4.Idx)
    (h0 : (i 0).val = T * 200000 + (j 0).val) (h1 : (i 1).val = (j 1).val) (h2 : (i 2).val = (j 2).val) :
    k0_pay1 (F := Ideal) x0 j = G x i := by
  obtain ⟨p, a, b, rfl⟩ : ∃ (p : Fin 200000) (a b : Fin 4), j = ix3 p a b := ⟨j 0, j 1, j 2, eq_ix3 j⟩
  obtain ⟨n, a', b', rfl⟩ : ∃ (n : Fin 4000000) (a' b' : Fin 4), i = ix3 n a' b' := ⟨i 0, i 1, i 2, eq_ix3 i⟩
  obtain rfl : a' = a := Fin.ext h1
  obtain rfl : b' = b := Fin.ext h2
  rw [Cert.KernelIdeal.BlockValue.pay_apply, G_ix3]
  unfold entry
  rw [hx p 1 (ix2 n (1 : Fin 4)) h0 rfl, hx p 2 (ix2 n (2 : Fin 4)) h0 rfl]

/-- WHAT POINT t WRITES BACK is block t of G of the argument array as the region finds it. -/
theorem flushed_eq (c : Dev nD) (t : Fin cfg0.N) :
    (dats m 0 c).flushed 1 t = ((cfg0.win 1).blk t).view.read (Elt Ideal) (G (V m c main_arg0)) := by
  rw [flushed1]
  unfold out0_1
  rw [View.canon_unit_zero zeros3]
  simp only [View.ld_unit_zero (S := S200000x4) zeros2]
  obtain ⟨e0, e1, e2, e3, e4⟩ := idx_facts t
  funext j
  refine block_entry (V m c main_arg0) (iblk m c 0 t) t.val ?_ j (((cfg0.win 1).blk t).view.emb j) ?_ ?_ ?_
  · intro p k q hq0 hq1
    unfold iblk
    rw [View.read_apply]
    show V m c main_arg0 (((cfg0.win 0).blk t).view.emb (ix2 p k)) = V m c main_arg0 q
    refine congrArg (V m c main_arg0) (funext fun a => Fin.ext ?_)
    match a with
    | ⟨0, _⟩ => show win0_0.index t (0 : Fin 2) * 200000 + 1 * p.val = (q 0).val; rw [e0, hq0]; omega
    | ⟨1, _⟩ => show win0_0.index t (1 : Fin 2) * 4 + 1 * k.val = (q 1).val; rw [e1, hq1]; omega
  · show win0_1.index t (0 : Fin 3) * 200000 + 1 * (j 0).val = t.val * 200000 + (j 0).val; rw [e2]; omega
  · show win0_1.index t (1 : Fin 3) * 4 + 1 * (j 1).val = (j 1).val; rw [e3]; omega
  · show win0_1.index t (2 : Fin 3) * 4 + 1 * (j 2).val = (j 2).val; rw [e4]; omega

/-- An index of the result array is in point t's block iff each coordinate is in the block's range on its axis. -/
theorem mem_blk (t : Fin cfg0.N) (i : S4000000x4x4.Idx) :
    i ∈ ((cfg0.win 1).blk t).view.set ↔ ∀ a : Fin 3, win0_1.index t a * S200000x4x4.size a ≤ (i a).val
      ∧ (i a).val < win0_1.index t a * S200000x4x4.size a + S200000x4x4.size a := by
  show i ∈ ((View.whole main_v0).slice (win0_1.rect t)).set ↔ _
  rw [View.set_slice_whole, Rect.mem_set_unit]
  exact Iff.rfl

/-- THE COVER: every index of the result array is in the block of the point "row / 200000". -/
theorem cover (i : S4000000x4x4.Idx) :
    ∃ t : Fin cfg0.N, (cfg0.win 1).flush t = true ∧ i ∈ ((cfg0.win 1).blk t).view.set := by
  have hi0 : (i 0).val < 4000000 := (i 0).isLt
  have hi1 : (i 1).val < 4 := (i 1).isLt
  have hi2 : (i 2).val < 4 := (i 2).isLt
  have hN : (i 0).val / 200000 < cfg0.N := by show _ < grid0.N; rw [N_0]; omega
  obtain ⟨e0, e1, e2, e3, e4⟩ := idx_facts ⟨(i 0).val / 200000, hN⟩
  refine ⟨⟨(i 0).val / 200000, hN⟩, flush0_1 _, ?_⟩
  rw [mem_blk]
  intro a
  match a with
  | ⟨0, _⟩ =>
    show win0_1.index ⟨(i 0).val / 200000, hN⟩ (0 : Fin 3) * 200000 ≤ (i 0).val
      ∧ (i 0).val < win0_1.index ⟨(i 0).val / 200000, hN⟩ (0 : Fin 3) * 200000 + 200000
    rw [e2]; show (i 0).val / 200000 * 200000 ≤ (i 0).val ∧ (i 0).val < (i 0).val / 200000 * 200000 + 200000; omega
  | ⟨1, _⟩ =>
    show win0_1.index ⟨(i 0).val / 200000, hN⟩ (1 : Fin 3) * 4 ≤ (i 1).val
      ∧ (i 1).val < win0_1.index ⟨(i 0).val / 200000, hN⟩ (1 : Fin 3) * 4 + 4
    rw [e3]; omega
  | ⟨2, _⟩ =>
    show win0_1.index ⟨(i 0).val / 200000, hN⟩ (2 : Fin 3) * 4 ≤ (i 2).val
      ∧ (i 2).val < win0_1.index ⟨(i 0).val / 200000, hN⟩ (2 : Fin 3) * 4 + 4
    rw [e4]; omega

/-- THE ARRAY after the run: G of the argument. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- THE RUN, READ: every weakly fair execution ends with the result array at G of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  The Schwarzschild metric of four million events: the kernel against its jnp reference, over the extended reals.

  Each row (t, r, θ, φ) of the argument is an event; with the lapse f = 1 − 2/r the result holds, for every event, the
  4×4 matrix diag(−f, 1/f, r², r²·sin²θ), written as the diagonal's a-th component times the identity's (a, b) entry.
  The kernel works through the events in twenty blocks of 200000 rows; the reference computes all rows at once. Both
  apply the same operations in the same order to the radius and the polar angle, so nothing about the operations'
  algebra is used and the precondition (finite inputs) is never opened: the entries agree at r = 0, r = 2 and at the
  infinities too. The two texts differ in three spellings only — the kernel negates the lapse as 0 − f where the
  reference negates; the kernel selects the identity's entries between the words 1.0 and 0.0 where the reference
  converts the bit of "row + 0 = column"; the kernel casts vectors to columns where the reference broadcasts them —
  and in the tiling.

  Proof/Spec.lean states the result as one function G of the argument, index by index. Proof/RefValue.lean reads the
  reference's last stage at an index: it is G. Proof/BlockValue.lean reads what the kernel body stores at an index of
  a block: it is G's entry for the block. Proof/ArrayValue.lean shows that point t writes back block t of G, that the
  twenty blocks cover the result array, and so that the kernel's run ends with the array at G. Here the two runs are
  set side by side. The three frames are the generated runs; the idealization rewrote nothing, so `preserves` is
  trivial.
-/
import proofs.«158145_j6390911336868_1_alg».proof.Defs
import proofs.«158145_j6390911336868_1_alg».proof.Proof.Gen.Kernel
import proofs.«158145_j6390911336868_1_alg».proof.Proof.Gen.Kernel.Frame
import proofs.«158145_j6390911336868_1_alg».proof.Proof.Gen.KernelIdeal
import proofs.«158145_j6390911336868_1_alg».proof.Proof.Gen.KernelIdeal.Frame
import proofs.«158145_j6390911336868_1_alg».proof.Proof.Gen.KernelIdeal.Value
import proofs.«158145_j6390911336868_1_alg».proof.Proof.Gen.ReferenceIdeal
import proofs.«158145_j6390911336868_1_alg».proof.Proof.Gen.ReferenceIdeal.Run
import proofs.«158145_j6390911336868_1_alg».proof.Proof.Gen.ReferenceIdeal.Read
import proofs.«158145_j6390911336868_1_alg».proof.Proof.Gen.Pre_finite_inputs
import proofs.«158145_j6390911336868_1_alg».proof.Proof.Spec
import proofs.«158145_j6390911336868_1_alg».proof.Proof.RefValue
import proofs.«158145_j6390911336868_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates without a fault and leaves the argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the result array at G of the argument: every
    event's metric. -/
theorem algebraic : Cert.algebraic_KernelIdeal_ReferenceIdeal := by
  intro m ρ m' ρ' _ hagree
  refine ⟨fun c => Cert.Metric.G (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
